-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S16x128 : Shape := ⟨2, ![16, 128]⟩
abbrev S4096x128 : Shape := ⟨2, ![4096, 128]⟩
abbrev S8x128 : Shape := ⟨2, ![8, 128]⟩
abbrev S128 : Shape := ⟨1, ![128]⟩
abbrev S1x128 : Shape := ⟨2, ![1, 128]⟩
abbrev S_ : Shape := ⟨0, ![]⟩

abbrev nBuf : Space → Nat
  | .hbm => 25
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16x128, .f32⟩
  | .hbm, ⟨2, _⟩ => ⟨S16x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  reduces_S4096x128_S128 : S4096x128.Reduces [0] S128
  shapeCasts_S128_S1x128 : S128.ShapeCasts S1x128
  shapeCasts_S8x128_S8x128 : S8x128.ShapeCasts S8x128
  shapeCasts_S1x128_S1x128 : S1x128.ShapeCasts S1x128
  broadcasts_S1x128_S8x128 : S1x128.Broadcasts S8x128
  slices_S16x128_S1x128_0_0 : S16x128.Slices ![0, 0] S1x128
  shapeCasts_S1x128_S128 : S1x128.ShapeCasts S128
  slices_S16x128_S1x128_8_0 : S16x128.Slices ![8, 0] S1x128
  reducesTo_S128_S_d0 : S128.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S128x16384 : Shape := ⟨2, ![128, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S_, .f32⟩
  | .hbm, ⟨3, _⟩ => ⟨S16384, .f32⟩
  | .hbm, ⟨4, _⟩ => ⟨S128x16384, .f32⟩
  | .hbm, ⟨5, _⟩ => ⟨S16384x16384, .f32⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  transposes_S16384x128_S128x16384_1_0 : S16384x128.Transposes [1, 0] S128x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.Spec.lean ====
/-
  The quantities both programs compute, as functions of the [16384,128] input array read as extended reals.

  The 16384 rows are cut into four tiles of 4096 consecutive rows. For a column d, `tileSum X b d` is the sum of the
  entries of column d over tile b, and `tileSq X b d` the sum of their squares. The kernel's two [16,128] partial
  arrays hold, in every row of half h (rows 8h .. 8h+7), the zero it starts from plus tile 2h plus tile 2h+1 — of the
  entries (`partSum`) and of their squares (`partSq`).
-/
import Idealize.ShloMosaic.PureOps.Ideal
import Idealize.ShloMosaic.Lib.ValueIdx

noncomputable section

open scoped BigOperators

namespace Cert.Spec

open Idealize.ShloMosaic Idealize.ShloMosaic.ValueIdx

/-- Row k of tile b. -/
abbrev row (b : Fin 4) (k : Fin 4096) : Fin 16384 := ⟨4096 * b.val + k.val, by omega⟩

/-- The sum of column d over the rows of tile b. -/
def tileSum (X : (⟨2, ![16384, 128]⟩ : Shape).Idx → EReal) (b : Fin 4) (d : Fin 128) : EReal :=
  ∑ k : Fin 4096, X (ix2 (row b k) d)

/-- The sum of the squares of column d over the rows of tile b. -/
def tileSq (X : (⟨2, ![16384, 128]⟩ : Shape).Idx → EReal) (b : Fin 4) (d : Fin 128) : EReal :=
  ∑ k : Fin 4096, X (ix2 (row b k) d) * X (ix2 (row b k) d)

/-- The first and the second tile of half h. -/
abbrev tile0 (h : Fin 2) : Fin 4 := ⟨2 * h.val, by omega⟩
abbrev tile1 (h : Fin 2) : Fin 4 := ⟨2 * h.val + 1, by omega⟩

/-- The half a row of a [16,128] partial array belongs to. -/
abbrev half (r : Fin 16) : Fin 2 := ⟨r.val / 8, by omega⟩

/-- The word of +0.0, which both running blocks start from. -/
abbrev zeroW : EReal := Ideal.ofBits .f32 0x00000000#32

/-- The partial column sums: row r, column d holds zero + tile 2h + tile 2h+1 for h the half of r. -/
def partSum (X : (⟨2, ![16384, 128]⟩ : Shape).Idx → EReal) : (⟨2, ![16, 128]⟩ : Shape).Idx → EReal :=
  fun j => (zeroW + tileSum X (tile0 (half (j 0))) (j 1)) + tileSum X (tile1 (half (j 0))) (j 1)

/-- The partial column sums of squares, laid out the same way. -/
def partSq (X : (⟨2, ![16384, 128]⟩ : Shape).Idx → EReal) : (⟨2, ![16, 128]⟩ : Shape).Idx → EReal :=
  fun j => (zeroW + tileSq X (tile0 (half (j 0))) (j 1)) + tileSq X (tile1 (half (j 0))) (j 1)

/-- `partSum` at an index whose row lies in half h and whose column is d. -/
theorem partSum_at (X : (⟨2, ![16384, 128]⟩ : Shape).Idx → EReal) (j : (⟨2, ![16, 128]⟩ : Shape).Idx) (h : Fin 2)
    (d : Fin 128) (hj0 : (j 0).val / 8 = h.val) (hj1 : (j 1).val = d.val) :
    partSum X j = (zeroW + tileSum X (tile0 h) d) + tileSum X (tile1 h) d := by
  have e0 : half (j 0) = h := Fin.ext hj0
  have e1 : j 1 = d := Fin.ext hj1
  unfold partSum
  rw [e0, e1]

/-- `partSq` at an index whose row lies in half h and whose column is d. -/
theorem partSq_at (X : (⟨2, ![16384, 128]⟩ : Shape).Idx → EReal) (j : (⟨2, ![16, 128]⟩ : Shape).Idx) (h : Fin 2)
    (d : Fin 128) (hj0 : (j 0).val / 8 = h.val) (hj1 : (j 1).val = d.val) :
    partSq X j = (zeroW + tileSq X (tile0 h) d) + tileSq X (tile1 h) d := by
  have e0 : half (j 0) = h := Fin.ext hj0
  have e1 : j 1 = d := Fin.ext hj1
  unfold partSq
  rw [e0, e1]

end Cert.Spec

end
-- ==== Proof.LibColumns.lean ====
/-
  General lemmas: a sum along the FIRST axis of a matrix, and a 1 × 1 matrix broadcast over a matrix, read at an index.

  * `colSum_ab_apply`: at the ideal values the f32 sum of an `[a, b]` matrix over its rows (a
    `vector.multi_reduction <add>` over axis 0 into `[b]`) is, at column `q`, `Σ k, v (k, q)`;
  * `broadcastTo_11_ab_apply`: a `[1, 1]` matrix broadcast to `[a, b]` reads its one entry everywhere;
  * `sqrt_apply`: the vector square root acts entry by entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- At the ideal values an f32 sum of an `[a, b]` matrix over axis 0 (from the sum's neutral word) is, at column
    `q`, the sum over the column's entries. -/
theorem colSum_ab_apply {a b : ℕ} (v : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun ax => Fin.ext (by
      match ax with
      | ⟨0, _⟩ => rfl
      | ⟨1, _⟩ => rfl)))

/-- A `[1, 1]` matrix broadcast to `[a, b]` reads, at every `(p, c)`, its one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The vector square root at an index, at the ideal values. -/
theorem sqrt_apply {s : Shape} {φ : FTy} (x : FVec Ideal s φ) (i : s.Idx) : sqrt x i = Ideal.sqrt (x i) := rfl

end Idealize.ShloMosaic.ValueIdx

end
-- ==== Proof.Payload.lean ====
/-
  The body's arithmetic read entry by entry, on the extended reals.

  `pay3 x acc` adds to the running block `acc` the column sums of the tile `x`, the same [1,128] row under every one of
  the block's 8 rows: at (r, d) it is acc (r, d) + the sum over the tile's 4096 rows k of x (k, d). `pay4` does the same
  with the squares x (k, d) * x (k, d). `pay1` and `pay2` are the zero block.
-/
import proofs.«131669_j17497696764047_2_alg».proof.Proof.Gen.KernelIdeal.Skeleton
import proofs.«131669_j17497696764047_2_alg».proof.Proof.LibColumns
import Idealize.ShloMosaic.Lib.ValueLayout

noncomputable section

open scoped BigOperators
open Idealize.ShloMosaic Idealize.ShloMosaic.ValueIdx

namespace Cert.KernelIdeal.Payload

open Cert.KernelIdeal Cert.KernelIdeal.Gen

/-- The zero block of output 1, at any entry. -/
theorem pay1_apply (y : S8x128.Idx) : k0_pay1 (F := Ideal) y = Ideal.ofBits .f32 0x00000000#32 := rfl

/-- The zero block of output 2, at any entry. -/
theorem pay2_apply (y : S8x128.Idx) : k0_pay2 (F := Ideal) y = Ideal.ofBits .f32 0x00000000#32 := rfl

/-- The running column sums after a step, at an entry of column `y 1`. -/
theorem pay3_apply (x : Vec Ideal S4096x128 .f32) (acc : Vec Ideal S8x128 .f32) (y : S8x128.Idx) :
    k0_pay3 (F := Ideal) x acc y = acc y + ∑ k : Fin 4096, x (ix2 k (y 1)) := by
  obtain ⟨r, d, rfl⟩ : ∃ (r : Fin 8) (d : Fin 128), y = ix2 r d := ⟨y 0, y 1, eq_ix2 y⟩
  unfold k0_pay3
  dsimp only
  rw [addf_apply, shapeCast_self, broadcastTo_1b_ab_apply, shapeCast_self, shapeCast_a_1a_apply]
  exact congrArg (acc (ix2 r d) + ·) (colSum_ab_apply x _ _ _ _ d)

/-- The running column sums of squares after a step, at an entry of column `y 1`. -/
theorem pay4_apply (x : Vec Ideal S4096x128 .f32) (acc : Vec Ideal S8x128 .f32) (y : S8x128.Idx) :
    k0_pay4 (F := Ideal) x acc y = acc y + ∑ k : Fin 4096, x (ix2 k (y 1)) * x (ix2 k (y 1)) := by
  obtain ⟨r, d, rfl⟩ : ∃ (r : Fin 8) (d : Fin 128), y = ix2 r d := ⟨y 0, y 1, eq_ix2 y⟩
  unfold k0_pay4
  dsimp only
  rw [addf_apply, shapeCast_self, broadcastTo_1b_ab_apply, shapeCast_self, shapeCast_a_1a_apply]
  exact congrArg (acc (ix2 r d) + ·) (colSum_ab_apply (mulf x x) _ _ _ _ d)

end Cert.KernelIdeal.Payload

end
-- ==== Proof.Blocks.lean ====
/-
  Which rows of the input the body sees, and where its output blocks land.

  The grid has four points t = 0, 1, 2, 3: half c = t / 2, step t mod 2. The input window at point t is tile t of the
  input, rows 4096 t .. 4096 t + 4095 (block index 2 c + step = t on the row axis); both output windows at point t are
  block t / 2 of their [16,128] array, rows 8 (t / 2) .. 8 (t / 2) + 7. All column block indices are 0.
-/
import proofs.«131669_j17497696764047_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the three windows at every grid point, decided over the four points. -/
theorem idx_facts : ∀ t : Fin cfg0.N, win0_0.index t (0 : Fin 2) = t.val ∧ win0_0.index t (1 : Fin 2) = 0
    ∧ win0_1.index t (0 : Fin 2) = t.val / 2 ∧ win0_1.index t (1 : Fin 2) = 0
    ∧ win0_2.index t (0 : Fin 2) = t.val / 2 ∧ win0_2.index t (1 : Fin 2) = 0 :=
  (by decide +kernel : ∀ t : Fin grid0.N, _)

/-- The tile the body loads at point t, at (k, d), is the input at row 4096 t + k, column d. -/
theorem iblk_apply (c : Dev nD) (t : Fin cfg0.N) (k : Fin 4096) (d : Fin 128) (row : Fin 16384)
    (hrow : row.val = 4096 * t.val + k.val) :
    (iblk m c 0 t : Vec F S4096x128 .f32) (ix2 k d) = m ((c : Thread nD τ).loc main_arg0) (ix2 row d) := by
  obtain ⟨e0, e1, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 4096 + 1 * k.val = row.val; rw [e0, hrow]; omega
  | ⟨1, _⟩ => show win0_0.index t (1 : Fin 2) * 128 + 1 * d.val = d.val; rw [e1]; omega

end Cert.KernelIdeal.Blocks

end
-- ==== Proof.Pieces.lean ====
/-
  What one run of the kernel body leaves in its two output blocks, as values.

  The body keeps two running [8,128] blocks: the column sums of the rows seen so far (output 1) and the column sums of
  their squares (output 2). At the first step of a half (inner coordinate 0) it stores a zero block into each, reads it
  back, and adds the current [4096,128] tile's column sums; at the second step it adds the tile's column sums to what
  the step before left. So after a first step output 1 holds `pay3 tile zero` and after a later step
  `pay3 tile previous` (`pay3 x acc = acc + colsum x`, every row of the block the same), and likewise output 2 with
  `pay4 x acc = acc + colsum (x * x)`.
-/
import proofs.«131669_j17497696764047_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The stores and loads of the body all start at the origin of their buffer. -/
theorem hz : (![0, 0] : Fin 2 → Nat) = fun _ => 0 := funext fun a => by fin_cases a <;> rfl

/-- A later step: output 1 ends at the previous block plus the tile's column sums. -/
theorem out_B_1 (c : Dev nD) (i : grid0.Coords) (a2 : Memref sig .tc .vmem S4096x128 .f32) (h2 : a2.IsWhole)
    (a3 : Memref sig .tc .vmem S8x128 .f32) (h3 : a3.IsWhole) (a4 : Memref sig .tc .vmem S8x128 .f32) (h4 : a4.IsWhole)
    (hc : ¬cond0_0 i) (x : Vec F S4096x128 .f32) (xo1 xo2 : Vec F S8x128 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S4096x128) hz,
    View.ld_unit_zero (S := S8x128) hz]

/-- A later step: output 2 ends at the previous block plus the column sums of the tile's squares. -/
theorem out_B_2 (c : Dev nD) (i : grid0.Coords) (a2 : Memref sig .tc .vmem S4096x128 .f32) (h2 : a2.IsWhole)
    (a3 : Memref sig .tc .vmem S8x128 .f32) (h3 : a3.IsWhole) (a4 : Memref sig .tc .vmem S8x128 .f32) (h4 : a4.IsWhole)
    (hc : ¬cond0_0 i) (x : Vec F S4096x128 .f32) (xo1 xo2 : Vec F S8x128 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S4096x128) hz,
    View.ld_unit_zero (S := S8x128) hz]

/-- A first step: the zero block is stored, read back, and the tile's column sums added to it. -/
theorem out_A_1 (c : Dev nD) (i : grid0.Coords) (a2 : Memref sig .tc .vmem S4096x128 .f32) (h2 : a2.IsWhole)
    (a3 : Memref sig .tc .vmem S8x128 .f32) (h3 : a3.IsWhole) (a4 : Memref sig .tc .vmem S8x128 .f32) (h4 : a4.IsWhole)
    (hc : cond0_0 i) (x : Vec F S4096x128 .f32) :
    out0_A_1 c i a2 h2 a3 h3 a4 h4 hc x = k0_pay3 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S4096x128) hz]

/-- A first step, output 2: the zero block plus the column sums of the tile's squares. -/
theorem out_A_2 (c : Dev nD) (i : grid0.Coords) (a2 : Memref sig .tc .vmem S4096x128 .f32) (h2 : a2.IsWhole)
    (a3 : Memref sig .tc .vmem S8x128 .f32) (h3 : a3.IsWhole) (a4 : Memref sig .tc .vmem S8x128 .f32) (h4 : a4.IsWhole)
    (hc : cond0_0 i) (x : Vec F S4096x128 .f32) :
    out0_A_2 c i a2 h2 a3 h3 a4 h4 hc x = k0_pay4 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S4096x128) hz]

end Cert.KernelIdeal.Pieces

end
-- ==== Proof.Accum.lean ====
/-
  What the two output blocks hold after each grid point.

  The step alternates: an even point t is the first step of its half and leaves (pay3 tile_t zero, pay4 tile_t zero);
  the odd point after it adds its own tile to what the even point left, so it leaves
  (pay3 tile_t (pay3 tile_(t-1) zero), pay4 tile_t (pay4 tile_(t-1) zero)). An odd point's predecessor is always
  even, so two cases describe every point and no induction over the grid is needed.
-/
import proofs.«131669_j17497696764047_2_alg».proof.Proof.Pieces

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ)

/-- After the first step of a half: the zero blocks plus this tile's column sums. -/
theorem outsAt_first (c : Dev nD) (n : ℕ) (hn : n < cfg0.N) (h0 : n % 2 = 0) :
    outsAt0 m c n hn = (k0_pay3 (iblk m c 0 ⟨n, hn⟩) k0_pay1, k0_pay4 (iblk m c 0 ⟨n, hn⟩) k0_pay2) :=
  (outsAt0_A m c ⟨n, hn⟩ h0).trans (by rw [Pieces.out_A_1, Pieces.out_A_2])

/-- After the second step of a half: the first step's blocks plus this tile's column sums. -/
theorem outsAt_second (c : Dev nD) (n : ℕ) (hn : n < cfg0.N) (h0 : ¬n % 2 = 0) :
    outsAt0 m c n hn
      = (k0_pay3 (iblk m c 0 ⟨n, hn⟩) (k0_pay3 (iblk m c 0 ⟨n - 1, Nat.lt_of_le_of_lt (Nat.sub_le _ _) hn⟩) k0_pay1),
         k0_pay4 (iblk m c 0 ⟨n, hn⟩) (k0_pay4 (iblk m c 0 ⟨n - 1, Nat.lt_of_le_of_lt (Nat.sub_le _ _) hn⟩) k0_pay2)) := by
  have hp : n - 1 < cfg0.N := Nat.lt_of_le_of_lt (Nat.sub_le _ _) hn
  have hprev := outsAt_first m c (n - 1) hp (by omega)
  refine (outsAt0_B m c ⟨n, hn⟩ h0).trans ?_
  rw [Pieces.out_B_1, Pieces.out_B_2]
  show (k0_pay3 _ (outsAt0 m c (n - 1) hp).1, k0_pay4 _ (outsAt0 m c (n - 1) hp).2) = _
  rw [hprev]

end Cert.KernelIdeal.Accum

end
-- ==== Proof.Final.lean ====
/-
  The two partial arrays after the kernel's run.

  Each half h = 0, 1 of the grid writes its output blocks back once, after its second step (the odd point t = 2h + 1),
  to rows 8h .. 8h+7 of the [16,128] arrays. What it writes is, in every row, zero + (column sums of tile 2h) + (column
  sums of tile 2h+1) — of the entries for the first array, of their squares for the second: the block of `partSum`,
  resp. `partSq`, of the input. The two write-backs cover all 16 rows, so the arrays end at `partSum` and `partSq`.
-/
import proofs.«131669_j17497696764047_2_alg».proof.Proof.Spec
import proofs.«131669_j17497696764047_2_alg».proof.Proof.Payload
import proofs.«131669_j17497696764047_2_alg».proof.Proof.Blocks
import proofs.«131669_j17497696764047_2_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec

variable (m : (ℓ : Loc nD τ sig) → Buf (Elt Ideal) ℓ)

/-- The input array as core c finds it. -/
abbrev X (c : Dev nD) : S16384x128.Idx → EReal := m ((c : Thread nD τ).loc main_arg0)

/-- The tile the body loads at point t, as a [4096,128] array of extended reals. -/
abbrev tileAt (c : Dev nD) (t : Fin cfg0.N) : S4096x128.Idx → EReal := iblk m c 0 t

/-- The column sums of the tile loaded at point t are those of tile t of the input. -/
theorem tile_sum_eq (c : Dev nD) (t : Fin cfg0.N) (b : Fin 4) (hb : b.val = t.val) (d : Fin 128) :
    ∑ k : Fin 4096, tileAt m c t (ix2 k d) = tileSum (X m c) b d := by
  unfold tileSum
  exact Finset.sum_congr rfl fun k _ => Blocks.iblk_apply m c t k d (row b k) (by show 4096 * b.val + k.val = _; rw [hb])

/-- The column sums of squares of the tile loaded at point t are those of tile t of the input. -/
theorem tile_sq_eq (c : Dev nD) (t : Fin cfg0.N) (b : Fin 4) (hb : b.val = t.val) (d : Fin 128) :
    ∑ k : Fin 4096, tileAt m c t (ix2 k d) * tileAt m c t (ix2 k d) = tileSq (X m c) b d := by
  unfold tileSq
  refine Finset.sum_congr rfl fun k _ => ?_
  have e : tileAt m c t (ix2 k d) = X m c (ix2 (row b k) d) :=
    Blocks.iblk_apply m c t k d (row b k) (by show 4096 * b.val + k.val = _; rw [hb])
  rw [e]

/-- After the second step of half h the block of column sums holds, at every entry of column `y 1`,
    zero + tile 2h + tile 2h+1. -/
theorem second_step_sum (c : Dev nD) (t : Fin cfg0.N) (hodd : t.val % 2 = 1) (h : Fin 2) (hh : h.val = t.val / 2)
    (y : S8x128.Idx) :
    k0_pay3 (F := Ideal) (tileAt m c t)
        (k0_pay3 (F := Ideal) (tileAt m c ⟨t.val - 1, Nat.lt_of_le_of_lt (Nat.sub_le _ _) t.isLt⟩) (k0_pay1 (F := Ideal))) y
      = (zeroW + tileSum (X m c) (tile0 h) (y 1)) + tileSum (X m c) (tile1 h) (y 1) := by
  refine (Payload.pay3_apply _ _ y).trans ?_
  refine congrArg₂ (· + ·) ?_ (tile_sum_eq m c t (tile1 h) (by show 2 * h.val + 1 = t.val; omega) (y 1))
  refine (Payload.pay3_apply _ _ y).trans ?_
  exact congrArg₂ (· + ·) (Payload.pay1_apply y)
    (tile_sum_eq m c ⟨t.val - 1, Nat.lt_of_le_of_lt (Nat.sub_le _ _) t.isLt⟩ (tile0 h) (by show 2 * h.val = t.val - 1; omega) (y 1))

/-- After the second step of half h the block of column sums of squares holds zero + tile 2h + tile 2h+1. -/
theorem second_step_sq (c : Dev nD) (t : Fin cfg0.N) (hodd : t.val % 2 = 1) (h : Fin 2) (hh : h.val = t.val / 2)
    (y : S8x128.Idx) :
    k0_pay4 (F := Ideal) (tileAt m c t)
        (k0_pay4 (F := Ideal) (tileAt m c ⟨t.val - 1, Nat.lt_of_le_of_lt (Nat.sub_le _ _) t.isLt⟩) (k0_pay2 (F := Ideal))) y
      = (zeroW + tileSq (X m c) (tile0 h) (y 1)) + tileSq (X m c) (tile1 h) (y 1) := by
  refine (Payload.pay4_apply _ _ y).trans ?_
  refine congrArg₂ (· + ·) ?_ (tile_sq_eq m c t (tile1 h) (by show 2 * h.val + 1 = t.val; omega) (y 1))
  refine (Payload.pay4_apply _ _ y).trans ?_
  exact congrArg₂ (· + ·) (Payload.pay2_apply y)
    (tile_sq_eq m c ⟨t.val - 1, Nat.lt_of_le_of_lt (Nat.sub_le _ _) t.isLt⟩ (tile0 h) (by show 2 * h.val = t.val - 1; omega) (y 1))

/-! ## The array of column sums -/

/-- What a flushing point writes back to the first array is its block of `partSum`. -/
theorem flushed1_eq (c : Dev nD) (t : Fin cfg0.N) (hf : (cfg0.win 1).flush t = true) :
    (dats m 0 c).flushed 1 t = ((cfg0.win 1).blk t).view.read (Elt Ideal) (partSum (X m c)) := by
  have hN : cfg0.N = 4 := N_0
  have hodd : t.val % 2 = 1 := (flush0_1 t).mp hf
  obtain ⟨-, -, e2, e3, -, -⟩ := Blocks.idx_facts t
  show (cfg0.win 1).cut (grid0.coords t) ((dats m 0 c).after 1 t) = _
  rw [after0_1, Accum.outsAt_second m c t.val t.isLt (by omega)]
  funext y
  rw [View.read_apply]
  have hy0 : (y 0).val < 8 := (y 0).isLt
  have hy1 : (y 1).val < 128 := (y 1).isLt
  have ht : t.val < 4 := lt_of_lt_of_eq t.isLt hN
  refine (second_step_sum m c t hodd ⟨t.val / 2, by omega⟩ rfl y).trans
    (partSum_at (X m c) _ ⟨t.val / 2, by omega⟩ (y 1) ?_ ?_).symm
  · show (win0_1.index t (0 : Fin 2) * 8 + 1 * (y 0).val) / 8 = t.val / 2
    rw [e2]; omega
  · show win0_1.index t (1 : Fin 2) * 128 + 1 * (y 1).val = (y 1).val
    rw [e3]; omega

/-- An index of the first array is in point t's block iff each coordinate is in the block's range on its axis. -/
theorem mem_blk1 (t : Fin cfg0.N) (i : S16x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0_0).slice (win0_1.rect t)).set ↔ _
  rw [View.set_slice_whole, Rect.mem_set_unit]
  exact Iff.rfl

/-- Row r of the first array is written back by the second step of half r / 8. -/
theorem cover1 (i : S16x128.Idx) :
    ∃ t : Fin cfg0.N, (cfg0.win 1).flush t = true ∧ i ∈ ((cfg0.win 1).blk t).view.set := by
  have hN : cfg0.N = 4 := N_0
  have hi0 : (i 0).val < 16 := (i 0).isLt
  have hi1 : (i 1).val < 128 := (i 1).isLt
  obtain ⟨t, ht⟩ : ∃ t : Fin cfg0.N, t.val = 2 * ((i 0).val / 8) + 1 := ⟨⟨2 * ((i 0).val / 8) + 1, by omega⟩, rfl⟩
  obtain ⟨-, -, e2, e3, -, -⟩ := Blocks.idx_facts t
  refine ⟨t, (flush0_1 t).mpr (by omega), ?_⟩
  rw [mem_blk1]
  intro a
  match a with
  | ⟨0, _⟩ => show win0_1.index t (0 : Fin 2) * 8 ≤ (i 0).val ∧ (i 0).val < win0_1.index t (0 : Fin 2) * 8 + 8; rw [e2]; omega
  | ⟨1, _⟩ => show win0_1.index t (1 : Fin 2) * 128 ≤ (i 1).val ∧ (i 1).val < win0_1.index t (1 : Fin 2) * 128 + 128; rw [e3]; omega

/-- The first array ends at the partial column sums. -/
theorem final1 (c : Dev nD) : (dats m 0 c).arrAt 1 cfg0.N = partSum (X m c) :=
  (dats m 0 c).arrAt_eq_of_cover 1 (partSum (X m c)) (fun t hf => flushed1_eq m c t hf) cover1

/-! ## The array of column sums of squares -/

/-- What a flushing point writes back to the second array is its block of `partSq`. -/
theorem flushed2_eq (c : Dev nD) (t : Fin cfg0.N) (hf : (cfg0.win 2).flush t = true) :
    (dats m 0 c).flushed 2 t = ((cfg0.win 2).blk t).view.read (Elt Ideal) (partSq (X m c)) := by
  have hN : cfg0.N = 4 := N_0
  have hodd : t.val % 2 = 1 := (flush0_2 t).mp hf
  obtain ⟨-, -, -, -, e4, e5⟩ := Blocks.idx_facts t
  show (cfg0.win 2).cut (grid0.coords t) ((dats m 0 c).after 2 t) = _
  rw [after0_2, Accum.outsAt_second m c t.val t.isLt (by omega)]
  funext y
  rw [View.read_apply]
  have hy0 : (y 0).val < 8 := (y 0).isLt
  have hy1 : (y 1).val < 128 := (y 1).isLt
  have ht : t.val < 4 := lt_of_lt_of_eq t.isLt hN
  refine (second_step_sq m c t hodd ⟨t.val / 2, by omega⟩ rfl y).trans
    (partSq_at (X m c) _ ⟨t.val / 2, by omega⟩ (y 1) ?_ ?_).symm
  · show (win0_2.index t (0 : Fin 2) * 8 + 1 * (y 0).val) / 8 = t.val / 2
    rw [e4]; omega
  · show win0_2.index t (1 : Fin 2) * 128 + 1 * (y 1).val = (y 1).val
    rw [e5]; omega

/-- An index of the second array is in point t's block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Row r of the second array is written back by the second step of half r / 8. -/
theorem cover2 (i : S16x128.Idx) :
    ∃ t : Fin cfg0.N, (cfg0.win 2).flush t = true ∧ i ∈ ((cfg0.win 2).blk t).view.set := by
  have hN : cfg0.N = 4 := N_0
  have hi0 : (i 0).val < 16 := (i 0).isLt
  have hi1 : (i 1).val < 128 := (i 1).isLt
  obtain ⟨t, ht⟩ : ∃ t : Fin cfg0.N, t.val = 2 * ((i 0).val / 8) + 1 := ⟨⟨2 * ((i 0).val / 8) + 1, by omega⟩, rfl⟩
  obtain ⟨-, -, -, -, e4, e5⟩ := Blocks.idx_facts t
  refine ⟨t, (flush0_2 t).mpr (by omega), ?_⟩
  rw [mem_blk2]
  intro a
  match a with
  | ⟨0, _⟩ => show win0_2.index t (0 : Fin 2) * 8 ≤ (i 0).val ∧ (i 0).val < win0_2.index t (0 : Fin 2) * 8 + 8; rw [e4]; omega
  | ⟨1, _⟩ => show win0_2.index t (1 : Fin 2) * 128 ≤ (i 1).val ∧ (i 1).val < win0_2.index t (1 : Fin 2) * 128 + 128; rw [e5]; omega

/-- The second array ends at the partial column sums of squares. -/
theorem final2 (c : Dev nD) : (dats m 0 c).arrAt 2 cfg0.N = partSq (X m c) :=
  (dats m 0 c).arrAt_eq_of_cover 2 (partSq (X m c)) (fun t hf => flushed2_eq m c t hf) cover2

end Cert.KernelIdeal.Final

end
-- ==== Proof.LibSumIdx1.lean ====
/-
  General lemma: a sum over the indices of a one-axis shape is the sum over the axis' coordinate.

  An index of the shape [n] is determined by its one coordinate k < n (`ix1 k`), so the indices are in bijection
  with `Fin n` and a sum over them can be re-indexed by the coordinate (`sum_idx1`), as `sum_idx2` does for a matrix.
-/
import Idealize.ShloMosaic.Lib.ValueIdx

open scoped BigOperators

namespace Cert.Lib

open Idealize.ShloMosaic Idealize.ShloMosaic.ValueIdx

/-- The indices of the shape [n] are the coordinates k < n. -/
def idxEquiv1 {n : Nat} : (⟨1, ![n]⟩ : Shape).Idx ≃ Fin n where
  toFun i := i 0
  invFun k := ix1 k
  left_inv i := (eq_ix1 i).symm
  right_inv _ := rfl

/-- A sum over the indices of the shape [n] is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.Lib
-- ==== Proof.Tail.lean ====
/-
  The host lines after the kernel, and the kernel program's result.

  From the two [16,128] partial arrays a (column sums) and b (column sums of squares) the host takes rows 0 and 8 — one
  row of each half —, adds them into two vectors of 128 totals, and returns

      ( 16384 * (0 + sum_d (b(0,d) + b(8,d)))  -  (0 + sum_d (a(0,d) + a(8,d))^2) )  /  (c1 * c2)

  with c1, c2 the two words of the divisor's factors. `tail` is those lines as one function; the program's result is
  `tail` of the two arrays the kernel's run ends at, `partSum` and `partSq` of the input.
-/
import proofs.«131669_j17497696764047_2_alg».proof.Proof.Final
import proofs.«131669_j17497696764047_2_alg».proof.Proof.LibSumIdx1
import Idealize.ShloMosaic.Lib.StableHlo.Run
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.StableHlo

namespace Cert.KernelIdeal.Tail

open Cert.KernelIdeal Cert.KernelIdeal.Gen Cert.Spec

section Generic

variable {F : FTy → Type} [FloatOps F]

/-- Row 0 plus row 8 of a [16,128] array, as a vector of 128. -/
def rowPair (a : FVec F S16x128 .f32) : FVec F S128 .f32 :=
  addf (shapeCast S128 (extractStridedSlice S1x128 ![0, 0] a slices_S16x128_S1x128_0_0) shapeCasts_S1x128_S128)
    (shapeCast S128 (extractStridedSlice S1x128 ![8, 0] a slices_S16x128_S1x128_8_0) shapeCasts_S1x128_S128)

/-- The host lines after the kernel as one function of the two partial arrays. -/
def tail (a b : FVec F S16x128 .f32) : FVec F S_ .f32 :=
  Host.divf
    (subf
      (mulf (constant S_ .f32 0x46800000#32)
        (Host.reduceAdd (rowPair b) (constant S_ .f32 0x00000000#32) reducesTo_S128_S_d0 h_S_))
      (Host.reduceAdd (mulf (rowPair a) (rowPair a)) (constant S_ .f32 0x00000000#32) reducesTo_S128_S_d0 h_S_))
    (mulf (constant S_ .f32 0x4CFFFC00#32) (constant S_ .f32 0x43000000#32))

variable (m : (ℓ : Loc nD τ sig) → Buf (Elt F) ℓ)

/-- The result buffer after the host lines is `tail` of the two arrays the region leaves. -/
theorem afterTail_eq (c : Dev nD) :
    Pipeline.afterTail₀ cfgs (dats m) 0 (V0 m) [hostOps1] c main_v17
      = tail ((dats m 0 c).arrAt 1 cfg0.N) ((dats m 0 c).arrAt 2 cfg0.N) := by
  have e1 : Pipeline.withArrays (cfgs 0).spec c (V0 m c) (fun w => (dats m 0 c).arrAt w (cfgs 0).N) (Proc.devRef .tc main_v0_0)
      = (dats m 0 c).arrAt 1 cfg0.N := Pipeline.withArrays_arr spec0 launch0.win.arr_inj c _ _ 1
  have e2 : Pipeline.withArrays (cfgs 0).spec c (V0 m c) (fun w => (dats m 0 c).arrAt w (cfgs 0).N) (Proc.devRef .tc main_v0_1)
      = (dats m 0 c).arrAt 2 cfg0.N := Pipeline.withArrays_arr spec0 launch0.win.arr_inj c _ _ 2
  unfold Pipeline.afterTail₀
  show StableHlo.after hostOps1 _ (Proc.devRef .tc main_v17) = _
  after_results
  rw [e1, e2]
  rfl

end Generic

/-! ## The tail read on the extended reals -/

/-- Row 0 plus row 8, at column d. -/
theorem rowPair_apply (a : FVec Ideal S16x128 .f32) (d : Fin 128) :
    rowPair a (ix1 d) = a (ix2 (0 : Fin 16) d) + a (ix2 (8 : Fin 16) d) := by
  unfold rowPair
  rw [addf_apply, shapeCast_1a_a_apply, shapeCast_1a_a_apply,
    slice2_axis0_apply 0 a slices_S16x128_S1x128_0_0 (0 : Fin 1) d (0 : Fin 16) rfl,
    slice2_axis0_apply 8 a slices_S16x128_S1x128_8_0 (0 : Fin 1) d (8 : Fin 16) rfl]

/-- The host's sum of a vector of 128 from an initial value. -/
theorem hostSum128_apply (x : FVec Ideal S128 .f32) (init : FVec Ideal S_ .f32) (i : S_.Idx) :
    Host.reduceAdd x init reducesTo_S128_S_d0 h_S_ i = init (Shape.Idx.first h_S_) + ∑ k : Fin 128, x (ix1 k) := by
  simp only [Host.reduceAdd, Ideal.hostReduceAdd_def]
  rw [Ideal.hostReduceAdd_total reducesTo_S128_S_d0 (fun b => b.elim0), Cert.Lib.sum_idx1]

/-- The numerator the kernel program divides: 16384 times the total of the squares' column sums, minus the sum of the
    squared column totals. -/
def kerNum (a b : FVec Ideal S16x128 .f32) : EReal :=
  Ideal.ofBits .f32 0x46800000#32
      * (Ideal.ofBits .f32 0x00000000#32 + ∑ d : Fin 128, (b (ix2 (0 : Fin 16) d) + b (ix2 (8 : Fin 16) d)))
    - (Ideal.ofBits .f32 0x00000000#32
        + ∑ d : Fin 128, (a (ix2 (0 : Fin 16) d) + a (ix2 (8 : Fin 16) d)) * (a (ix2 (0 : Fin 16) d) + a (ix2 (8 : Fin 16) d)))

/-- The tail's one entry: the numerator over the product of the divisor's two words. -/
theorem tail_apply (a b : FVec Ideal S16x128 .f32) (i : S_.Idx) :
    tail a b i = Ideal.div (kerNum a b) (Ideal.ofBits .f32 0x4CFFFC00#32 * Ideal.ofBits .f32 0x43000000#32) := by
  unfold tail kerNum
  show Ideal.div (Ideal.ofBits .f32 0x46800000#32 * Host.reduceAdd (rowPair b) _ reducesTo_S128_S_d0 h_S_ i
      - Host.reduceAdd (mulf (rowPair a) (rowPair a)) _ reducesTo_S128_S_d0 h_S_ i) _ = _
  rw [hostSum128_apply, hostSum128_apply]
  simp only [rowPair_apply, mulf_apply, constant_apply]

end Cert.KernelIdeal.Tail

end
-- ==== Proof.KernelResult.lean ====
/-
  The kernel program's run, with its result named.

  The generated frame run ends with the two partial arrays at what the grid's write-backs leave — `partSum` and `partSq`
  of the input — and the result buffer at the host lines after the kernel applied to them: `tail` of the two.
-/
import proofs.«131669_j17497696764047_2_alg».proof.Proof.Tail

noncomputable section

open Idealize.ShloMosaic Idealize.ShloMosaic.TcCoe Idealize.SL.Sem

namespace Cert.KernelIdeal.Result

open Cert.KernelIdeal Cert.KernelIdeal.Gen Cert.Spec

variable (m : (ℓ : Loc nD τ sig) → Buf (Elt Ideal) ℓ) (ρ : Dev nD → PrngReg)

/-- The result buffer is no array of the kernel: the host lines after it decide its contents. -/
theorem v17_rest : main_v17 ∈ Pipeline.restRefs sig (cfgs 0).spec :=
  Pipeline.mem_restRefs_of main_v17 rfl (by decide)

/-- Every weakly fair execution of the kernel program ends with its result at `tail` of the partial sums of the input,
    the input unchanged. -/
theorem run : θ_run defs (onTc (τ := τ) (main (F := Ideal))) ⟨m, fun _ => 0, ρ⟩ fun r => ∀ c : Dev nD,
      r.2.mem ((c.tc : Thread nD τ).loc main_v17)
        = Tail.tail (F := Ideal) (partSum (Final.X m c)) (partSq (Final.X m c))
      ∧ r.2.mem ((c.tc : Thread nD τ).loc main_arg0) = m ((c.tc : Thread nD τ).loc main_arg0) :=
  (θ_run defs _ _).mono (fun r h c =>
      ⟨((h c).2 main_v17 v17_rest).trans ((Tail.afterTail_eq m c).trans (by rw [Final.final1, Final.final2])),
        ((h c).1 0).trans (((dats m 0 c).arrAt_in 0 rfl _).trans ((A_eq m c 0).trans (V_main_arg0 m c)))⟩)
    (run_main m ρ)

end Cert.KernelIdeal.Result

end
-- ==== Proof.RefValue.lean ====
/-
  The reference's result read on the extended reals.

  The reference forms, for every ordered pair (p, q) of rows, |x_p|^2 + |x_q|^2 - 2 <x_p, x_q> (the squared lengths as row
  sums of squares, the inner products as one matrix product with the transpose), sums the [16384,16384] array, halves
  the total, and divides by the same two-word product as the kernel program. Its result is therefore
  `refNum X / (c1 * c2)` with

      refNum X = 0.5 * (0 + sum_p sum_q ((0 + sum_k X(p,k)^2) + (0 + sum_k X(q,k)^2) - 2 * sum_k X(p,k) X(q,k))) .
-/
import proofs.«131669_j17497696764047_2_alg».proof.Proof.Gen.ReferenceIdeal.Read
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Read

/-- The numerator the reference divides: half the sum over all ordered pairs of rows of their squared distance. -/
def refNum (X : S16384x128.Idx → EReal) : EReal :=
  Ideal.ofBits .f32 0x3F000000#32
    * (Ideal.ofBits .f32 0x00000000#32
      + ∑ p : Fin 16384, ∑ q : Fin 16384,
          (((Ideal.ofBits .f32 0x00000000#32 + ∑ k : Fin 128, X (ix2 p k) * X (ix2 p k))
              + (Ideal.ofBits .f32 0x00000000#32 + ∑ k : Fin 128, X (ix2 q k) * X (ix2 q k)))
            - Ideal.ofBits .f32 0x40000000#32 * ∑ k : Fin 128, X (ix2 p k) * X (ix2 q k)))

/-- The squared-distance entry (p, q) of the reference's [16384,16384] array. -/
theorem pdist_apply (X : S16384x128.Idx → EReal) (p q : Fin 16384) :
    val_main_v11 (F := Ideal) X (ix2 p q)
      = ((Ideal.ofBits .f32 0x00000000#32 + ∑ k : Fin 128, X (ix2 p k) * X (ix2 p k))
          + (Ideal.ofBits .f32 0x00000000#32 + ∑ k : Fin 128, X (ix2 q k) * X (ix2 q k)))
        - Ideal.ofBits .f32 0x40000000#32 * ∑ k : Fin 128, X (ix2 p k) * X (ix2 q k) := by
  have i1 : ∀ k : Fin 128, idx_main_v1 (idx_main_v4 (idx_main_v6 (ix2 p q))) k = ix2 p k := fun k =>
    funext fun a => Fin.ext (by match a with | ⟨0, _⟩ => rfl | ⟨1, _⟩ => rfl)
  have i2 : ∀ k : Fin 128, idx_main_v1 (idx_main_v5 (idx_main_v7 (ix2 p q))) k = ix2 q k := fun k =>
    funext fun a => Fin.ext (by match a with | ⟨0, _⟩ => rfl | ⟨1, _⟩ => rfl)
  have i3 : ∀ k : Fin 128, lidx_main_v3 (ix2 p q) k = ix2 p k := fun k =>
    funext fun a => Fin.ext (by match a with | ⟨0, _⟩ => rfl | ⟨1, _⟩ => rfl)
  have i4 : ∀ k : Fin 128, idx_main_v2 (ridx_main_v3 (ix2 p q) k) = ix2 q k := fun k =>
    funext fun a => Fin.ext (by match a with | ⟨0, _⟩ => rfl | ⟨1, _⟩ => rfl)
  rw [val_main_v11_apply, val_main_v8_apply, val_main_v10_apply, val_main_v6_apply, val_main_v7_apply,
    val_main_v4_apply, val_main_v5_apply, val_main_v1_apply, val_main_v1_apply, val_main_v9_apply,
    val_main_cst_0_apply, val_main_v3_apply]
  simp only [val_main_v0_apply, val_main_v2_apply, val_main_cst_apply, i1, i2, i3, i4, Ideal.addf_def, Ideal.subf_def,
    Ideal.mulf_def, Ideal.ofBits_def]

/-- The reference's one result entry: its numerator over the product of the divisor's two words. -/
theorem ref_apply (X : S16384x128.Idx → EReal) (i : S_.Idx) :
    val_main_v15 (F := Ideal) X i
      = Ideal.div (refNum X) (Ideal.ofBits .f32 0x4CFFFC00#32 * Ideal.ofBits .f32 0x43000000#32) := by
  rw [val_main_v15_apply, val_main_v13_apply, val_main_v14_apply, val_main_v12_apply, sum_idx2]
  simp only [pdist_apply, val_main_cst_1_apply, val_main_cst_2_apply, val_main_cst_3_apply, val_main_cst_4_apply,
    Ideal.hostDivf_def, Ideal.mulf_def, Ideal.ofBits_def]
  rfl

end Cert.ReferenceIdeal.RefValue

end
-- ==== Proof.Consts.lean ====
/-
  The float words of the two programs' scalar constants, as real numbers.

  0x46800000 is 16384 (the number of rows), 0x40000000 is 2, 0x3F000000 is 1/2, and the zero word is 0.
-/
import Idealize.ShloMosaic.PureOps.Ideal
import Idealize.ShloMosaic.PureOps.Ideal.Laws

noncomputable section

open Idealize.ShloMosaic

namespace Cert.Consts

theorem ofBits_16384 : Ideal.ofBits .f32 0x46800000#32 = ((16384 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32, EReal.coe_zero]

end Cert.Consts

end
-- ==== Proof.PairwiseLaw.lean ====
/-
  The algebraic law behind the certificate, over the reals.

  For a finite family of vectors x_i (i in I) with coordinates d in D, write A_i = sum_d x_i d * x_i d for the squared
  length of x_i and B_ij = sum_d x_i d * x_j d for the inner product of x_i and x_j. The squared distance of x_i and x_j
  is A_i + A_j - 2 B_ij, and half the sum of the squared distances over ALL ordered pairs (i, j) collapses:

      (1/2) * sum_i sum_j (A_i + A_j - 2 B_ij)  =  card(I) * sum_d sum_i (x_i d)^2  -  sum_d (sum_i x_i d)^2 .

  Indeed sum_i sum_j A_i = sum_i sum_j A_j = card(I) * sum_i A_i, and sum_i sum_j B_ij = sum_d (sum_i x_i d) * (sum_j x_j d)
  by exchanging the order of summation and factoring the double sum of products.
-/
import Mathlib.Algebra.BigOperators.Ring.Finset
import Mathlib.Algebra.BigOperators.Fin
import Mathlib.Data.Fintype.BigOperators
import Mathlib.Data.Real.Basic
import Mathlib.Tactic.Ring
import Mathlib.Tactic.Linarith

open scoped BigOperators

namespace Cert.PairwiseLaw

/-- Half the sum of the squared distances over all ordered pairs, in closed form. -/
theorem pairwise_law {I D : Type*} [Fintype I] [Fintype D] (x : I → D → ℝ) :
    (1 / 2 : ℝ) * ∑ p : I, ∑ q : I, ((∑ k, x p k * x p k) + (∑ k, x q k * x q k) - 2 * ∑ k, x p k * x q k)
      = (Fintype.card I : ℝ) * (∑ d, ∑ i, x i d * x i d) - ∑ d, (∑ i, x i d) * (∑ i, x i d) := by
  have h1 : ∑ p : I, ∑ _q : I, (∑ k, x p k * x p k) = (Fintype.card I : ℝ) * ∑ i, ∑ k, x i k * x i k := by
    rw [Finset.mul_sum]
    refine Finset.sum_congr rfl fun p _ => ?_
    rw [Finset.sum_const, Finset.card_univ, nsmul_eq_mul]
  have h2 : ∑ _p : I, ∑ q : I, (∑ k, x q k * x q k) = (Fintype.card I : ℝ) * ∑ i, ∑ k, x i k * x i k := by
    rw [Finset.sum_const, Finset.card_univ, nsmul_eq_mul]
  have h3 : ∑ p : I, ∑ q : I, ∑ k, x p k * x q k = ∑ d, (∑ i, x i d) * (∑ i, x i d) := by
    have e : ∀ p : I, ∑ q : I, ∑ k, x p k * x q k = ∑ k, ∑ q : I, x p k * x q k := fun p => Finset.sum_comm
    rw [Finset.sum_congr rfl fun p _ => e p, Finset.sum_comm]
    refine Finset.sum_congr rfl fun d _ => ?_
    rw [Finset.sum_mul_sum]
  have h4 : ∑ d, ∑ i, x i d * x i d = ∑ i, ∑ k, x i k * x i k := Finset.sum_comm
  have h5 : ∑ p : I, ∑ q : I, ((∑ k, x p k * x p k) + (∑ k, x q k * x q k) - 2 * ∑ k, x p k * x q k)
      = (∑ p : I, ∑ _q : I, ∑ k, x p k * x p k) + (∑ _p : I, ∑ q : I, ∑ k, x q k * x q k)
        - 2 * ∑ p : I, ∑ q : I, ∑ k, x p k * x q k := by
    simp only [Finset.sum_sub_distrib, Finset.sum_add_distrib, Finset.mul_sum]
  rw [h5, h1, h2, h3, h4]
  ring

end Cert.PairwiseLaw
-- ==== Proof.LibERealSum.lean ====
/-
  The coercion of the reals into the extended reals commutes with finite sums.
-/
import Mathlib.Data.EReal.Operations
import Mathlib.Algebra.BigOperators.Group.Finset.Basic

open scoped BigOperators

namespace Cert.Lib

/-- The coercion `ℝ → EReal` of a finite sum of reals is the sum of the coercions: the coercion is additive
    (`EReal.coe_add`) and sends `0` to `0`, so the statement follows by induction on the index set. -/
theorem EReal_coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Lib
-- ==== Proof.LibTileSum.lean ====
/-
  A sum over `K * T` consecutive indices cut into `K` tiles of `T` consecutive indices each.

  The index `i < K * T` is written `i = k * T + j` with `k < K` the tile and `j < T` the position inside the tile; the
  map `(k, j) ↦ k * T + j` is a bijection of `Fin K × Fin T` with `Fin (K * T)`, so the sum of `f` over all indices is
  the sum over the tiles of each tile's sum (`sum_tiles`). A running total that starts at `0` and adds one tile's sum
  at each of `K` steps therefore ends at the whole sum (`sum_tiles_fold`). Both hold in any additive commutative monoid.
-/
import Mathlib.Data.Fintype.BigOperators
import Mathlib.Logic.Equiv.Fin.Basic
import Mathlib.Algebra.BigOperators.Fin

open scoped BigOperators

namespace Cert.Lib

/-- Position `j` of tile `k` is a valid index: `k * T + j < (k + 1) * T ≤ K * T`. -/
theorem tile_lt {K T k : ℕ} (hk : k < K) (j : Fin T) : k * T + j.val < K * T :=
  calc k * T + j.val < k * T + T := Nat.add_lt_add_left j.isLt _
    _ = (k + 1) * T := (Nat.succ_mul k T).symm
    _ ≤ K * T := Nat.mul_le_mul_right T hk

/-- The sum over `K * T` indices is the sum over the `K` tiles of the sum over each tile's `T` positions: re-index the
    right side along the bijection `(k, j) ↦ k * T + j` and split the sum over the product into the double sum. -/
theorem sum_tiles {M : Type*} [AddCommMonoid M] (K T : ℕ) (f : Fin (K * T) → M) :
    ∑ k : Fin K, ∑ j : Fin T, f ⟨k.val * T + j.val, tile_lt k.isLt j⟩ = ∑ i : Fin (K * T), f i := by
  refine Eq.trans ?_ (Equiv.sum_comp (finProdFinEquiv (m := K) (n := T)) f)
  rw [Fintype.sum_prod_type]
  refine Finset.sum_congr rfl fun k _ => Finset.sum_congr rfl fun j _ => congrArg f (Fin.ext ?_)
  show k.val * T + j.val = j.val + T * k.val
  rw [Nat.mul_comm, Nat.add_comm]

/-- The running form: a total `acc` that starts at `0` and at step `k < K` adds the sum of tile `k` is, after `K` steps,
    the sum over all `K * T` indices. After `n ≤ K` steps the total is the sum of the first `n` tiles (induction on
    `n`); at `n = K` that is the double sum of `sum_tiles`. -/
theorem sum_tiles_fold {M : Type*} [AddCommMonoid M] (K T : ℕ) (f : Fin (K * T) → M) (acc : ℕ → M) (h0 : acc 0 = 0)
    (hs : ∀ k (hk : k < K), acc (k + 1) = acc k + ∑ j : Fin T, f ⟨k * T + j.val, tile_lt hk j⟩) :
    acc K = ∑ i : Fin (K * T), f i := by
  have key : ∀ n, n ≤ K → acc n = ∑ k ∈ Finset.range n,
      (if hk : k < K then ∑ j : Fin T, f ⟨k * T + j.val, tile_lt hk j⟩ else 0) := by
    intro n
    induction n with
    | zero => intro _; rw [Finset.range_zero, Finset.sum_empty]; exact h0
    | succ n ih =>
      intro hn
      have hk : n < K := hn
      rw [Finset.sum_range_succ, ← ih (Nat.le_of_lt hk), dif_pos hk, hs n hk]
  rw [key K (Nat.le_refl K), ← sum_tiles K T f, Finset.sum_fin_eq_sum_range]

/-- `sum_tiles` at 16 tiles of 1024, stated over `Fin 16384`. -/
theorem sum_tiles_16_1024 {M : Type*} [AddCommMonoid M] (f : Fin 16384 → M) :
    ∑ k : Fin 16, ∑ j : Fin 1024, f ⟨k.val * 1024 + j.val, by omega⟩ = ∑ i : Fin 16384, f i :=
  sum_tiles 16 1024 f

/-- `sum_tiles_fold` at 16 tiles of 1024, stated over `Fin 16384`. -/
theorem sum_tiles_fold_16_1024 {M : Type*} [AddCommMonoid M] (f : Fin 16384 → M) (acc : ℕ → M) (h0 : acc 0 = 0)
    (hs : ∀ k (hk : k < 16), acc (k + 1) = acc k + ∑ j : Fin 1024, f ⟨k * 1024 + j.val, by omega⟩) :
    acc 16 = ∑ i : Fin 16384, f i :=
  sum_tiles_fold 16 1024 f acc h0 hs

end Cert.Lib
-- ==== Proof.Bridge.lean ====
/-
  The two numerators are one number.

  With real entries X(p,k) = x p k every quantity of both programs is the coercion of a real number, so the two
  numerators are compared over the reals. The kernel program's is

      16384 * sum_d (squares' column totals)  -  sum_d (column totals)^2 ,

  each column total being assembled from the four tiles of 4096 rows, which together are all 16384 rows; the reference's
  is half the sum over all ordered pairs of rows of their squared distance. The pairwise law, at 16384 rows, says these
  are equal.
-/
import proofs.«131669_j17497696764047_2_alg».proof.Proof.Tail
import proofs.«131669_j17497696764047_2_alg».proof.Proof.RefValue
import proofs.«131669_j17497696764047_2_alg».proof.Proof.Consts
import proofs.«131669_j17497696764047_2_alg».proof.Proof.PairwiseLaw
import proofs.«131669_j17497696764047_2_alg».proof.Proof.LibERealSum
import proofs.«131669_j17497696764047_2_alg».proof.Proof.LibTileSum

noncomputable section

open scoped BigOperators
open Idealize.ShloMosaic Idealize.ShloMosaic.ValueIdx

namespace Cert.Bridge

open Cert.Spec

/-- Column d summed over tile b, over the reals. -/
def s (x : Fin 16384 → Fin 128 → ℝ) (b : Fin 4) (d : Fin 128) : ℝ := ∑ k : Fin 4096, x (row b k) d

/-- The squares of column d summed over tile b, over the reals. -/
def sq (x : Fin 16384 → Fin 128 → ℝ) (b : Fin 4) (d : Fin 128) : ℝ := ∑ k : Fin 4096, x (row b k) d * x (row b k) d

/-- The kernel program's numerator over the reals, grouped as the program groups it. -/
def kn (x : Fin 16384 → Fin 128 → ℝ) : ℝ :=
  (16384 : ℝ) * ((0 : ℝ) + ∑ d : Fin 128,
      ((((0 : ℝ) + sq x (tile0 0) d) + sq x (tile1 0) d) + (((0 : ℝ) + sq x (tile0 1) d) + sq x (tile1 1) d)))
    - ((0 : ℝ) + ∑ d : Fin 128,
      ((((0 : ℝ) + s x (tile0 0) d) + s x (tile1 0) d) + (((0 : ℝ) + s x (tile0 1) d) + s x (tile1 1) d))
        * ((((0 : ℝ) + s x (tile0 0) d) + s x (tile1 0) d) + (((0 : ℝ) + s x (tile0 1) d) + s x (tile1 1) d)))

/-- The reference's numerator over the reals, grouped as the reference groups it. -/
def rn (x : Fin 16384 → Fin 128 → ℝ) : ℝ :=
  (1 / 2 : ℝ) * ((0 : ℝ) + ∑ p : Fin 16384, ∑ q : Fin 16384,
      ((((0 : ℝ) + ∑ k : Fin 128, x p k * x p k) + ((0 : ℝ) + ∑ k : Fin 128, x q k * x q k))
        - (2 : ℝ) * ∑ k : Fin 128, x p k * x q k))

/-- The four tiles of 4096 rows are all 16384 rows. -/
theorem sum_four_tiles (f : Fin 16384 → ℝ) :
    (∑ k : Fin 4096, f (row (tile0 0) k)) + (∑ k : Fin 4096, f (row (tile1 0) k))
        + ((∑ k : Fin 4096, f (row (tile0 1) k)) + ∑ k : Fin 4096, f (row (tile1 1) k))
      = ∑ i : Fin 16384, f i := by
  have e : ∀ b : Fin 4, ∑ k : Fin 4096, f (row b k)
      = ∑ j : Fin 4096, f ⟨b.val * 4096 + j.val, Cert.Lib.tile_lt b.isLt j⟩ := fun b =>
    Finset.sum_congr rfl fun k _ => congrArg f (Fin.ext (by show 4096 * b.val + k.val = b.val * 4096 + k.val; omega))
  refine Eq.trans ?_ (Cert.Lib.sum_tiles 4 4096 f)
  rw [Fin.sum_univ_four, e, e, e, e]
  rw [show tile0 (0 : Fin 2) = (0 : Fin 4) from rfl, show tile1 (0 : Fin 2) = (1 : Fin 4) from rfl,
    show tile0 (1 : Fin 2) = (2 : Fin 4) from rfl, show tile1 (1 : Fin 2) = (3 : Fin 4) from rfl]
  ring

/-- The two numerators agree over the reals. -/
theorem kn_eq_rn (x : Fin 16384 → Fin 128 → ℝ) : kn x = rn x := by
  have h1 : ∀ d, s x (tile0 0) d + s x (tile1 0) d + (s x (tile0 1) d + s x (tile1 1) d) = ∑ i, x i d :=
    fun d => sum_four_tiles fun i => x i d
  have h2 : ∀ d, sq x (tile0 0) d + sq x (tile1 0) d + (sq x (tile0 1) d + sq x (tile1 1) d) = ∑ i, x i d * x i d :=
    fun d => sum_four_tiles fun i => x i d * x i d
  unfold kn rn
  simp only [zero_add, h1, h2]
  rw [Cert.PairwiseLaw.pairwise_law x, Fintype.card_fin]
  norm_num

/-- With real entries, the kernel program's numerator and the reference's are the same extended real. -/
theorem numerators_eq (X : (⟨2, ![16384, 128]⟩ : Shape).Idx → EReal) (x : Fin 16384 → Fin 128 → ℝ)
    (hX : ∀ p k, X (ix2 p k) = ((x p k : ℝ) : EReal)) :
    Cert.KernelIdeal.Tail.kerNum (partSum X) (partSq X) = Cert.ReferenceIdeal.RefValue.refNum X := by
  have ts : ∀ b d, tileSum X b d = ((s x b d : ℝ) : EReal) := fun b d => by
    unfold tileSum s
    simp only [hX]
    exact (Cert.Lib.EReal_coe_finset_sum _ _).symm
  have tq : ∀ b d, tileSq X b d = ((sq x b d : ℝ) : EReal) := fun b d => by
    unfold tileSq sq
    simp only [hX, ← EReal.coe_mul]
    exact (Cert.Lib.EReal_coe_finset_sum _ _).symm
  have a0 : ∀ d, partSum X (ix2 (0 : Fin 16) d) = (zeroW + tileSum X (tile0 0) d) + tileSum X (tile1 0) d :=
    fun d => partSum_at X _ 0 d (by show (0 : ℕ) / 8 = 0; rfl) rfl
  have a8 : ∀ d, partSum X (ix2 (8 : Fin 16) d) = (zeroW + tileSum X (tile0 1) d) + tileSum X (tile1 1) d :=
    fun d => partSum_at X _ 1 d (by show (8 : ℕ) / 8 = 1; rfl) rfl
  have b0 : ∀ d, partSq X (ix2 (0 : Fin 16) d) = (zeroW + tileSq X (tile0 0) d) + tileSq X (tile1 0) d :=
    fun d => partSq_at X _ 0 d (by show (0 : ℕ) / 8 = 0; rfl) rfl
  have b8 : ∀ d, partSq X (ix2 (8 : Fin 16) d) = (zeroW + tileSq X (tile0 1) d) + tileSq X (tile1 1) d :=
    fun d => partSq_at X _ 1 d (by show (8 : ℕ) / 8 = 1; rfl) rfl
  have hk : Cert.KernelIdeal.Tail.kerNum (partSum X) (partSq X) = ((kn x : ℝ) : EReal) := by
    unfold Cert.KernelIdeal.Tail.kerNum kn
    simp only [a0, a8, b0, b8, ts, tq, zeroW, Cert.Consts.ofBits_zero, Cert.Consts.ofBits_16384]
    simp only [← EReal.coe_add, ← EReal.coe_mul, ← Cert.Lib.EReal_coe_finset_sum, ← EReal.coe_sub]
  have hr : Cert.ReferenceIdeal.RefValue.refNum X = ((rn x : ℝ) : EReal) := by
    unfold Cert.ReferenceIdeal.RefValue.refNum rn
    simp only [hX, Cert.Consts.ofBits_zero, Cert.Consts.ofBits_half, Cert.Consts.ofBits_two]
    simp only [← EReal.coe_add, ← EReal.coe_mul, ← Cert.Lib.EReal_coe_finset_sum, ← EReal.coe_sub]
  rw [hk, hr, kn_eq_rn]

end Cert.Bridge

end
-- ==== Proof.Finite.lean ====
/-
  From the precondition to real entries.

  The precondition says that |X i| < +inf at every index i of the input, the comparison being against the word of +inf.
  An extended real whose absolute value max(x, -x) is below +inf is neither +inf nor -inf, so it is a real number.
-/
import proofs.«131669_j17497696764047_2_alg».proof.Pre_finite_inputs
import Idealize.ShloMosaic.Lib.ReduceAll
import Idealize.ShloMosaic.Lib.ValueIdx
import Idealize.ShloMosaic.PureOps.Ideal.Laws

noncomputable section

open Idealize.ShloMosaic

namespace Cert.Finite

open Cert.Pre_finite_inputs

instance : Subsingleton S_.Idx := ⟨fun a b => funext fun d => d.elim0⟩

/-- The word the precondition compares against is +inf. -/
theorem inf_word : Ideal.ofBits .f32 0x7F800000#32 = ⊤ := by simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the input is a real number. -/
theorem real_of_pre [Facts] (X : FVec Ideal S16384x128 .f32) (h : fn (F := Ideal) X = fun _ => 1#1)
    (i : S16384x128.Idx) : ∃ r : ℝ, X i = (r : EReal) := by
  have h0 := congrFun h ValueIdx.ix0
  dsimp only [fn] at h0
  have hi := Host.reduce_andi_all _ _ _ _ _ h0 i
  have hc : Ideal.cmp .olt (max (X i) (-(X i))) (Ideal.ofBits .f32 0x7F800000#32) = 1#1 := hi
  refine real_of_abs_lt_top (X i) ?_
  rw [← inf_word]
  by_contra hn
  simp [Ideal.cmp, hn] at hc

end Cert.Finite

end
-- ==== Proof.lean ====
/-
  The certificate: the mean pairwise squared distance of 16384 vectors of dimension 128, computed two ways.

  The reference sums |x_p|^2 + |x_q|^2 - 2 <x_p, x_q> over all ordered pairs (p, q) of rows, halves the total and divides
  by (number of unordered pairs) * (dimension). The kernel program makes one pass over the rows: its kernel accumulates,
  per half of the rows, the column sums and the column sums of squares of two tiles of 4096 rows; the host adds the two
  halves and forms 16384 * (total of squares) - (sum over columns of the squared column total), then divides by the same
  product. Over the reals the two numerators are equal (the pairwise law); on the extended reals the same holds because
  the precondition makes every entry, and so every intermediate quantity, a real number. The divisor is the same pair of
  words on both sides and is never evaluated.

  The three frames are the generated ones (the reference's is its generated run with the result dropped); the
  idealization rewrote nothing, so `preserves` is trivial.
-/
import proofs.«131669_j17497696764047_2_alg».proof.Defs
import proofs.«131669_j17497696764047_2_alg».proof.Proof.Gen.Kernel
import proofs.«131669_j17497696764047_2_alg».proof.Proof.Gen.Kernel.Skeleton
import proofs.«131669_j17497696764047_2_alg».proof.Proof.Gen.Kernel.Launch
import proofs.«131669_j17497696764047_2_alg».proof.Proof.Gen.Kernel.Points
import proofs.«131669_j17497696764047_2_alg».proof.Proof.Gen.Kernel.Frame
import proofs.«131669_j17497696764047_2_alg».proof.Proof.Gen.KernelIdeal
import proofs.«131669_j17497696764047_2_alg».proof.Proof.Gen.KernelIdeal.Skeleton
import proofs.«131669_j17497696764047_2_alg».proof.Proof.Gen.KernelIdeal.Launch
import proofs.«131669_j17497696764047_2_alg».proof.Proof.Gen.KernelIdeal.Points
import proofs.«131669_j17497696764047_2_alg».proof.Proof.Gen.KernelIdeal.Frame
import proofs.«131669_j17497696764047_2_alg».proof.Proof.Gen.ReferenceIdeal
import proofs.«131669_j17497696764047_2_alg».proof.Proof.Gen.Pre_finite_inputs
import proofs.«131669_j17497696764047_2_alg».proof.Proof.Gen.ReferenceIdeal.Run
import proofs.«131669_j17497696764047_2_alg».proof.Proof.Gen.ReferenceIdeal.Read
import proofs.«131669_j17497696764047_2_alg».proof.Proof.KernelResult
import proofs.«131669_j17497696764047_2_alg».proof.Proof.Bridge
import proofs.«131669_j17497696764047_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at (numerator) / (c1 * c2) with the same two words c1, c2; the precondition makes the entries
    real, and then the two numerators are the same number. -/
theorem algebraic : Cert.algebraic_KernelIdeal_ReferenceIdeal := by
  intro m ρ m' ρ' hpre hagree
  refine ⟨fun c => Cert.KernelIdeal.Tail.tail (F := Ideal) (Cert.Spec.partSum (Cert.KernelIdeal.Final.X m c))
    (Cert.Spec.partSq (Cert.KernelIdeal.Final.X m c)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  funext i
  show Cert.ReferenceIdeal.Read.val_main_v15 (F := Ideal) _ i
    = Cert.KernelIdeal.Tail.tail (F := Ideal) (Cert.Spec.partSum (Cert.KernelIdeal.Final.X m c))
        (Cert.Spec.partSq (Cert.KernelIdeal.Final.X m c)) i
  have hfin := Cert.Finite.real_of_pre _ (hpre c)
  choose x hx using hfin
  rw [Cert.ReferenceIdeal.RefValue.ref_apply, Cert.KernelIdeal.Tail.tail_apply,
    Cert.Bridge.numerators_eq _ (fun p k => x (ix2 p k)) (fun p k => hx (ix2 p k))]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
